-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : IVec S1600000 32) (main_arg1 : IVec S1600000 32) (main_arg2 : FVec F S1600000 .f32) (main_arg3 : FVec F S1600000 .f32) (main_arg4 : FVec F S50000x128 .f32) (main_arg5 : FVec F S128x128 .f32) (main_arg6 : FVec F S128 .f32) (main_arg7 : FVec F S128x128 .f32) (main_arg8 : FVec F S128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S50000x128 .f32 := Host.absf main_arg4
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S51200x128 : Shape := ⟨2, ![51200, 128]⟩
abbrev S1x128 : Shape := ⟨2, ![1, 128]⟩
abbrev S6400x128 : Shape := ⟨2, ![6400, 128]⟩

abbrev nBuf : Space → Nat
  | .hbm => 37
  | .vmem => 10
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S1600000, .f32⟩
  | .hbm, ⟨4, _⟩ => ⟨S50000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1600000, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S_, .i32⟩
  | .hbm, ⟨27, _⟩ => ⟨S_, .f32⟩
  | .hbm, ⟨28, _⟩ => ⟨S51200x128, .f32⟩
  | .hbm, ⟨29, _⟩ => ⟨S128x128, .bf16⟩
  | .hbm, ⟨30, _⟩ => ⟨S128x128, .bf16⟩
  | .hbm, ⟨31, _⟩ => ⟨S1x128, .f32⟩
  | .hbm, ⟨32, _⟩ => ⟨S1x128, .f32⟩
  | .hbm, ⟨33, _⟩ => ⟨S51200x128, .f32⟩
  | .hbm, ⟨34, _⟩ => ⟨S51200x128, .f32⟩
  | .hbm, ⟨35, _⟩ => ⟨S50000x128, .f32⟩
  | .hbm, ⟨36, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S6400x128, .f32⟩
  | .local _ .vmem, ⟨7, _⟩ => ⟨S6400x128, .f32⟩
  | .local _ .vmem, ⟨8, _⟩ => ⟨S6400x128, .f32⟩
  | .local _ .vmem, ⟨9, _⟩ => ⟨S6400x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_1 : Ref sig .tc := ⟨.hbm, 26, rfl⟩
abbrev main_call0_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19_0 : Ref sig .tc := ⟨.hbm, 33, rfl⟩
abbrev main_v19_1 : Ref sig .tc := ⟨.hbm, 34, rfl⟩
abbrev main_v20 : Ref sig .tc := ⟨.hbm, 35, rfl⟩
abbrev main_v21 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  pads_S50000x128_S51200x128_012000_000 : S50000x128.Pads (![0, 0] : Fin 2 → Nat) ![1200, 0] ![0, 0] S51200x128
  h_S_ : 0 < S_.numel
  bitsLt_bf16_f32 : FTy.bits .bf16 < FTy.bits .f32
  shapeCasts_S128_S1x128 : S128.ShapeCasts S1x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  slices_S51200x128_S50000x128_0_0 : S51200x128.Slices ![0, 0] S50000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S6400x128_S128x128_S6400x128_1_1_0_0_n_n_wf : DotDims.WF S6400x128 S128x128 S6400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S51200x128.size a
  hwx0_0 : ∀ i : grid0.Coords, EltTy.bits .f32 = 32 ∨ (Rect.block (s := S51200x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x128.size a ≤ S51200x128.size a
  hwx0_5 : ∀ i : grid0.Coords, EltTy.bits .f32 = 32 ∨ (Rect.block (s := S51200x128) S6400x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S6400x128.size a ≤ S51200x128.size a
  hwx0_6 : ∀ i : grid0.Coords, EltTy.bits .f32 = 32 ∨ (Rect.block (s := S51200x128) S6400x128.size (cc0_transform_6 i) (hinb0_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S6400x128_S128x128_S6400x128_1_1_0_0_n_n : DotDims S6400x128 S128x128 S6400x128 where
  lhsContracting := [1]
  rhsContracting := [1]
  lhsNonContracting := [0]
  rhsNonContracting := [0]
  lhsBatch := []
  rhsBatch := []
  wf := dot_S6400x128_S128x128_S6400x128_1_1_0_0_n_n_wf

abbrev win0_0 : Pipeline.Window sig grid0 :=
  Pipeline.Window.ofSpec (Memref.whole main_v14) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19_0) S6400x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_1) S6400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S1600000, .f32⟩
  | .hbm, ⟨4, _⟩ => ⟨S50000x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000, .f32⟩
  | .hbm, ⟨19, _⟩ => ⟨S1600000x1, .f32⟩
  | .hbm, ⟨20, _⟩ => ⟨S1600000x128, .f32⟩
  | .hbm, ⟨21, _⟩ => ⟨S1600000x128, .f32⟩
  | .hbm, ⟨22, _⟩ => ⟨S_, .f32⟩
  | .hbm, ⟨23, _⟩ => ⟨S50000x128, .f32⟩
  | .hbm, ⟨24, _⟩ => ⟨S1600000x1, .i32⟩
  | .hbm, ⟨25, _⟩ => ⟨S50000x128, .f32⟩
  | .hbm, ⟨26, _⟩ => ⟨S128x128, .f32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S128x128, .f32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .i1⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_v24 : Ref sig .tc := ⟨.hbm, 49, rfl⟩
abbrev main_cst_1 : Ref sig .tc := ⟨.hbm, 50, rfl⟩
abbrev main_v25 : Ref sig .tc := ⟨.hbm, 51, rfl⟩
abbrev main_v26 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HeadsSpec.lean ====
/-
  What the two programs compute, stated once over the extended reals and over no program.

  Both heads read one aggregated feature matrix `P` (one row per vertex, 128 columns). The location head is the
  affine map `loc[r, c] = Σ_k P[r, k] · W[c, k] + β[c]`: row `r` of `P` against ROW `c` of the weight matrix (the product
  with the transposed weights), plus a bias that depends on the column only. The scale head is the same affine map of
  its own weights and bias followed by `softplus` in the overflow-free spelling
  `max z 0 + log (1 + exp (-|z - 0|))`, plus a fixed positive literal. No law beyond reading both programs at an index is
  needed: neither distributivity nor cancellation is used, so the values may be infinite.
-/
import Idealize.ShloMosaic.PureOps.Ideal
import Idealize.ShloMosaic.PureOps.Ideal.Laws
import Idealize.ShloMosaic.Lib.ValueIdx

noncomputable section

open scoped BigOperators

namespace Cert.Heads

open Idealize.ShloMosaic Idealize.ShloMosaic.ValueIdx

/-- A matrix of extended reals with `R` rows and 128 columns. -/
abbrev Mat (R : Nat) : Type := (⟨2, ![R, 128]⟩ : Shape).Idx → EReal

/-- The affine head at row `r`, column `c`: row `r` of `P` against row `c` of `W`, plus the column's bias. -/
def locAt {R : Nat} (P : Mat R) (W : Mat 128) (β : Fin 128 → EReal) (r : Fin R) (c : Fin 128) : EReal :=
  (∑ k : Fin 128, P (ix2 r k) * W (ix2 c k)) + β c

/-- `softplus z + ε` as both programs spell it: `max z 0 + log1p (exp (-|z - 0|))`, then the literal `ε` (the f32
    nearest to 1e-7, kept as its word: it is the same word on both sides and is never evaluated). -/
def softplusEps (z : EReal) : EReal :=
  (max z 0 + Ideal.log1p (Ideal.exp (-(max (z - 0) (-(z - 0)))))) + Ideal.ofBits .f32 0x33D6BF95#32

/-- The scale head at row `r`, column `c`. -/
def stdAt {R : Nat} (P : Mat R) (W : Mat 128) (β : Fin 128 → EReal) (r : Fin R) (c : Fin 128) : EReal :=
  softplusEps (locAt P W β r c)

/-- The location head as a whole matrix. -/
def locMat {R : Nat} (P : Mat R) (W : Mat 128) (β : Fin 128 → EReal) : Mat R :=
  fun i => locAt P W β ⟨(i 0).val, idx2_lt0 i⟩ ⟨(i 1).val, idx2_lt1 i⟩

/-- The scale head as a whole matrix. -/
def stdMat {R : Nat} (P : Mat R) (W : Mat 128) (β : Fin 128 → EReal) : Mat R :=
  fun i => stdAt P W β ⟨(i 0).val, idx2_lt0 i⟩ ⟨(i 1).val, idx2_lt1 i⟩

theorem locMat_ix2 {R : Nat} (P : Mat R) (W : Mat 128) (β : Fin 128 → EReal) (r : Fin R) (c : Fin 128) :
    locMat P W β (ix2 r c) = locAt P W β r c := rfl

theorem stdMat_ix2 {R : Nat} (P : Mat R) (W : Mat 128) (β : Fin 128 → EReal) (r : Fin R) (c : Fin 128) :
    stdMat P W β (ix2 r c) = stdAt P W β r c := rfl

/-- The affine head at a row depends on that row of `P` only: two matrices (of any heights) that agree on the row,
    and two weight matrices and biases that agree everywhere, give the same value. -/
theorem locAt_congr {R R' : Nat} (P : Mat R) (P' : Mat R') (W W' : Mat 128) (β β' : Fin 128 → EReal)
    (r : Fin R) (r' : Fin R') (c : Fin 128) (hP : ∀ k : Fin 128, P (ix2 r k) = P' (ix2 r' k))
    (hW : ∀ k : Fin 128, W (ix2 c k) = W' (ix2 c k)) (hβ : β c = β' c) :
    locAt P W β r c = locAt P' W' β' r' c := by
  unfold locAt
  rw [hβ]
  exact congrArg (· + β' c) (Finset.sum_congr rfl fun k _ => by rw [hP k, hW k])

/-- The same for the scale head. -/
theorem stdAt_congr {R R' : Nat} (P : Mat R) (P' : Mat R') (W W' : Mat 128) (β β' : Fin 128 → EReal)
    (r : Fin R) (r' : Fin R') (c : Fin 128) (hP : ∀ k : Fin 128, P (ix2 r k) = P' (ix2 r' k))
    (hW : ∀ k : Fin 128, W (ix2 c k) = W' (ix2 c k)) (hβ : β c = β' c) :
    stdAt P W β r c = stdAt P' W' β' r' c := by
  unfold stdAt
  rw [locAt_congr P P' W W' β β' r r' c hP hW hβ]

/-- A comparison "ordered and different" of a value with itself is the bit 0: nothing differs from itself. -/
theorem cmp_one_self (w : EReal) : Ideal.cmp .one w w = 0#1 := by
  simp [Ideal.cmp]

/-- The same for "unordered or different": the extended reals have nothing unordered. -/
theorem cmp_une_self (w : EReal) : Ideal.cmp .une w w = 0#1 := by
  simp [Ideal.cmp]

/-- The device's spelling of the scale head's last steps, at one element: the self-comparison guard never fires, and
    `0 - a` is `-a`. -/
theorem softplus_device (z : EReal) :
    (Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32))))))
      + Ideal.ofBits .f32 0x33D6BF95#32 = softplusEps z := by
  rw [cmp_one_self, select_zero, Ideal.ofBits_zero_f32, zero_sub]
  rfl

/-- The host's spelling: the guard compares with "unordered or different", and the negation is written as such. -/
theorem softplus_host (z : EReal) :
    (Scalar.select (Ideal.cmp .une (z - Ideal.ofBits .f32 0x00000000#32) (z - Ideal.ofBits .f32 0x00000000#32))
        (z + Ideal.ofBits .f32 0x00000000#32)
        (max z (Ideal.ofBits .f32 0x00000000#32)
          + Ideal.log1p (Ideal.exp (-(max (z - Ideal.ofBits .f32 0x00000000#32) (-(z - Ideal.ofBits .f32 0x00000000#32)))))))
      + Ideal.ofBits .f32 0x33D6BF95#32 = softplusEps z := by
  rw [cmp_une_self, select_zero, Ideal.ofBits_zero_f32]
  rfl

end Cert.Heads

end
-- ==== Proof.KernelPayload.lean ====
/-
  What the kernel body computes on one block, read at one element.

  A block is 6400 consecutive rows of the (zero-padded) feature matrix. The body rounds the block to bf16 (the identity
  on extended reals), multiplies it against the ROWS of each 128 x 128 weight matrix (both operands contracted on their
  second axis) into a zero accumulator, adds the bias row broadcast down the block, and for the second head applies
  softplus and adds a literal. At element (p, q) of the block that is the affine head of the specification, and its
  softplus: a matrix product into a zero accumulator is the plain sum over the contracted coordinate.
-/
import proofs.«165769_j88106959110337_2_alg».proof.Proof.Gen.KernelIdeal.Skeleton
import proofs.«165769_j88106959110337_2_alg».proof.Proof.HeadsSpec
import Idealize.ShloMosaic.Lib.Pipeline.Value
import Idealize.ShloMosaic.Lib.ValueIdx
import Idealize.ShloMosaic.PureOps.Ideal.Laws

noncomputable section

open scoped BigOperators

namespace Cert.Heads.Body

open Cert.KernelIdeal Cert.KernelIdeal.Gen Idealize.ShloMosaic Idealize.ShloMosaic.ValueIdx Cert.Heads

/-- The body's contraction: a [6400,128] operand against a [128,128] operand, both on axis 1. -/
abbrev D : DotDims S6400x128 S128x128 S6400x128 := dot_S6400x128_S128x128_S6400x128_1_1_0_0_n_n

/-- The left operand is read at the result's row … -/
theorem lhs_row (j : S6400x128.Idx) (q : D.contr.Idx) : (D.lhsIdx j q 0).val = (j 0).val := by
  unfold DotDims.lhsIdx
  rw [dif_neg (show ¬(0 : Fin S6400x128.rank) ∈ D.lhsBatch by decide),
    dif_pos (show (0 : Fin S6400x128.rank) ∈ D.lhsNonContracting by decide)]
  rfl
/-- … and the contracted coordinate. -/
theorem lhs_col (j : S6400x128.Idx) (q : D.contr.Idx) : (D.lhsIdx j q 1).val = (q ⟨0, by decide⟩).val :=
  D.lhsIdx_val_of_single rfl j q
/-- The right operand is read at the row named by the result's COLUMN … -/
theorem rhs_row (j : S6400x128.Idx) (q : D.contr.Idx) : (D.rhsIdx j q 0).val = (j 1).val := by
  unfold DotDims.rhsIdx
  rw [dif_neg (show ¬(0 : Fin S128x128.rank) ∈ D.rhsBatch by decide),
    dif_pos (show (0 : Fin S128x128.rank) ∈ D.rhsNonContracting by decide)]
  rfl
/-- … and the contracted coordinate. -/
theorem rhs_col (j : S6400x128.Idx) (q : D.contr.Idx) : (D.rhsIdx j q 1).val = (q ⟨0, by decide⟩).val :=
  D.rhsIdx_val_of_single rfl j q

/-- The product into the zero accumulator at (p, q): row `p` of the left operand against row `q` of the right. -/
theorem matmul_at (x : FVec Ideal S6400x128 .bf16) (w : FVec Ideal S128x128 .bf16) (p : Fin 6400) (q : Fin 128) :
    matmul D none x w (constant S6400x128 .f32 0x00000000#32) (ix2 p q) = ∑ k : Fin 128, x (ix2 p k) * w (ix2 q k) := by
  refine (Ideal.matmul_constant_zero_apply D none x w (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_col _ _).trans hk)
  have er : D.rhsIdx (ix2 p q) ((contrEquiv1 D 128 rfl rfl).symm k) = ix2 q k := funext fun a => Fin.ext (by
    match a with
    | ⟨0, _⟩ => exact rhs_row _ _
    | ⟨1, _⟩ => exact (rhs_col _ _).trans hk)
  rw [el, er]

/-- The bias row broadcast down the block reads the row's entry of the column. -/
theorem bias_at (b : FVec Ideal S1x128 .f32) (p : Fin 6400) (q : Fin 128) :
    broadcastTo S6400x128 (shapeCast S1x128 b shapeCasts_S1x128_S1x128 : FVec Ideal S1x128 .f32)
        broadcasts_S1x128_S6400x128 (ix2 p q) = b (ix2 (0 : Fin 1) q) := by
  rw [shapeCast_self]
  exact broadcastTo_apply b broadcasts_S1x128_S6400x128 (ix2 p q) (ix2 (0 : Fin 1) q) (fun a => by
    match a with
    | ⟨0, _⟩ => rfl
    | ⟨1, _⟩ => rfl)

/-- The affine part both stores share, at (p, q). -/
theorem affine_at (x0 : Vec Ideal S6400x128 .f32) (w : Vec Ideal S128x128 .bf16) (b : Vec Ideal S1x128 .f32)
    (p : Fin 6400) (q : Fin 128) :
    addf (matmul D none (k0_pay1 x0) (shapeCast S128x128 w shapeCasts_S128x128_S128x128 : FVec Ideal S128x128 .bf16)
          (constant S6400x128 .f32 0x00000000#32))
        (broadcastTo S6400x128 (shapeCast S1x128 b shapeCasts_S1x128_S1x128 : FVec Ideal S1x128 .f32)
          broadcasts_S1x128_S6400x128 : FVec Ideal S6400x128 .f32) (ix2 p q)
      = locAt (R := 6400) x0 w (fun c => b (ix2 (0 : Fin 1) c)) p q := by
  refine (addf_apply _ _ _).trans ?_
  rw [matmul_at, bias_at, shapeCast_self]
  unfold locAt k0_pay1
  rw [shapeCast_self]
  rfl

/-- The first store's value at (p, q): the location head of the block. -/
theorem pay2_at (x0 : Vec Ideal S6400x128 .f32) (w : Vec Ideal S128x128 .bf16) (b : Vec Ideal S1x128 .f32)
    (p : Fin 6400) (q : Fin 128) :
    k0_pay2 x0 w b (ix2 p q) = locAt (R := 6400) x0 w (fun c => b (ix2 (0 : Fin 1) c)) p q := by
  unfold k0_pay2
  exact affine_at x0 w b p q

/-- The second store's value at (p, q): the scale head of the block. -/
theorem pay3_at (x0 : Vec Ideal S6400x128 .f32) (w : Vec Ideal S128x128 .bf16) (b : Vec Ideal S1x128 .f32)
    (p : Fin 6400) (q : Fin 128) :
    k0_pay3 x0 w b (ix2 p q) = stdAt (R := 6400) x0 w (fun c => b (ix2 (0 : Fin 1) c)) p q := by
  unfold k0_pay3 stdAt
  rw [← affine_at x0 w b p q]
  exact softplus_device _

/-- The first store's value at (p, q) as an element of the location head of WHOLE matrices, given that the block's row
    `p` is the row of `A` the element `i` names, that the weights and the bias row are the whole ones, and that `i`'s
    column is `q`. -/
theorem pay2_at_of {R : Nat} (A : Mat R) (Wt : Mat 128) (β : Fin 128 → EReal)
    (x0 : Vec Ideal S6400x128 .f32) (w : Vec Ideal S128x128 .bf16) (b : Vec Ideal S1x128 .f32)
    (p : Fin 6400) (q : Fin 128) (i : (⟨2, ![R, 128]⟩ : Shape).Idx) (hq : (i 1).val = q.val)
    (h0 : ∀ k : Fin 128, x0 (ix2 p k) = A (ix2 (⟨(i 0).val, idx2_lt0 i⟩ : Fin R) k))
    (h1 : ∀ k : Fin 128, w (ix2 q k) = Wt (ix2 q k))
    (h2 : b (ix2 (0 : Fin 1) q) = β q) :
    k0_pay2 x0 w b (ix2 p q) = locMat A Wt β i := by
  rw [pay2_at]
  unfold locMat
  rw [show (⟨(i 1).val, idx2_lt1 i⟩ : Fin 128) = q from Fin.ext hq]
  exact locAt_congr _ _ _ _ _ _ p _ q h0 h1 h2

/-- The same for the second store and the scale head. -/
theorem pay3_at_of {R : Nat} (A : Mat R) (Wt : Mat 128) (β : Fin 128 → EReal)
    (x0 : Vec Ideal S6400x128 .f32) (w : Vec Ideal S128x128 .bf16) (b : Vec Ideal S1x128 .f32)
    (p : Fin 6400) (q : Fin 128) (i : (⟨2, ![R, 128]⟩ : Shape).Idx) (hq : (i 1).val = q.val)
    (h0 : ∀ k : Fin 128, x0 (ix2 p k) = A (ix2 (⟨(i 0).val, idx2_lt0 i⟩ : Fin R) k))
    (h1 : ∀ k : Fin 128, w (ix2 q k) = Wt (ix2 q k))
    (h2 : b (ix2 (0 : Fin 1) q) = β q) :
    k0_pay3 x0 w b (ix2 p q) = stdMat A Wt β i := by
  rw [pay3_at]
  unfold stdMat
  rw [show (⟨(i 1).val, idx2_lt1 i⟩ : Fin 128) = q from Fin.ext hq]
  exact stdAt_congr _ _ _ _ _ _ p _ q h0 h1 h2

end Cert.Heads.Body

end
-- ==== Proof.KernelBlocks.lean ====
/-
  From blocks to arrays: what the two output arrays of the kernel hold after all eight grid points.

  Grid point `t` reads rows 6400·t … 6400·t + 6399 of the padded feature matrix, the whole weight matrices and the whole
  bias rows, and writes back rows 6400·t … 6400·t + 6399 of each output. What it writes back is therefore the block of
  ONE matrix — the location (scale) head of the padded features — and the eight blocks tile all 51200 rows, so after the
  run each output array IS that matrix.
-/
import proofs.«165769_j88106959110337_2_alg».proof.Proof.Gen.KernelIdeal.Frame
import proofs.«165769_j88106959110337_2_alg».proof.Proof.KernelPayload
import Idealize.ShloMosaic.Lib.Pipeline.Value

noncomputable section

namespace Cert.Heads.Blocks

open Cert.KernelIdeal Cert.KernelIdeal.Gen Idealize.ShloMosaic Idealize.ShloMosaic.TcCoe Idealize.SL.Sem
open Idealize.ShloMosaic.ValueIdx Cert.Heads Cert.Heads.Body
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps, decided over the eight grid points: the feature window and both output windows sit at block
    row `t`, block column 0; the weight and bias windows never move. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The location head of the arrays as the region finds them: padded features, rounded weights, reshaped bias. -/
def locPad (c : Dev nD) : Mat 51200 :=
  locMat (R := 51200) (V m c main_v14) (V m c main_v15) (fun q => V m c main_v17 (ix2 (0 : Fin 1) q))

/-- The scale head of the arrays as the region finds them. -/
def stdPad (c : Dev nD) : Mat 51200 :=
  stdMat (R := 51200) (V m c main_v14) (V m c main_v16) (fun q => V m c main_v18 (ix2 (0 : Fin 1) q))

/-- Row `p` of the feature block at point `t` is row 6400·t + p of the padded features. -/
theorem feat_block (c : Dev nD) (t : Fin cfg0.N) (p : Fin 6400) (k : Fin 128) (r : Fin 51200) (hr : r.val = t.val * 6400 + p.val) :
    iblk m c 0 t (ix2 p k) = V m c main_v14 (ix2 r k) := by
  obtain ⟨e00, e01, -⟩ := idx_facts t
  show V m c main_v14 (((cfg0.win 0).blk t).view.emb (ix2 p k)) = V m c main_v14 (ix2 r k)
  refine congrArg (V m c main_v14) (funext fun a => Fin.ext ?_)
  match a with
  | ⟨0, _⟩ => show win0_0.index t (0 : Fin 2) * 6400 + 1 * p.val = r.val; omega
  | ⟨1, _⟩ => show win0_0.index t (1 : Fin 2) * 128 + 1 * k.val = k.val; omega

/-- The weight blocks are the whole weight matrices … -/
theorem locw_block (c : Dev nD) (t : Fin cfg0.N) (q k : Fin 128) :
    iblk m c 1 t (ix2 q k) = V m c main_v15 (ix2 q k) := by
  obtain ⟨-, -, e10, e11, -⟩ := idx_facts t
  show V m c main_v15 (((cfg0.win 1).blk t).view.emb (ix2 q k)) = V m c main_v15 (ix2 q k)
  refine congrArg (V m c main_v15) (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

theorem stdw_block (c : Dev nD) (t : Fin cfg0.N) (q k : Fin 128) :
    iblk m c 3 t (ix2 q k) = V m c main_v16 (ix2 q k) := by
  obtain ⟨-, -, -, -, -, -, e30, e31, -⟩ := idx_facts t
  show V m c main_v16 (((cfg0.win 3).blk t).view.emb (ix2 q k)) = V m c main_v16 (ix2 q k)
  refine congrArg (V m c main_v16) (funext fun a => Fin.ext ?_)
  match a with
  | ⟨0, _⟩ => show win0_3.index t (0 : Fin 2) * 128 + 1 * q.val = q.val; omega
  | ⟨1, _⟩ => show win0_3.index t (1 : Fin 2) * 128 + 1 * k.val = k.val; omega

/-- … and the bias blocks the whole bias rows. -/
theorem locb_block (c : Dev nD) (t : Fin cfg0.N) (q : Fin 128) :
    iblk m c 2 t (ix2 (0 : Fin 1) q) = V m c main_v17 (ix2 (0 : Fin 1) q) := by
  obtain ⟨-, -, -, -, e20, e21, -⟩ := idx_facts t
  show V m c main_v17 (((cfg0.win 2).blk t).view.emb (ix2 (0 : Fin 1) q)) = V m c main_v17 (ix2 (0 : Fin 1) q)
  refine congrArg (V m c main_v17) (funext fun a => Fin.ext ?_)
  match a with
  | ⟨0, _⟩ => show win0_2.index t (0 : Fin 2) * 1 + 1 * 0 = 0; omega
  | ⟨1, _⟩ => show win0_2.index t (1 : Fin 2) * 128 + 1 * q.val = q.val; omega

theorem stdb_block (c : Dev nD) (t : Fin cfg0.N) (q : Fin 128) :
    iblk m c 4 t (ix2 (0 : Fin 1) q) = V m c main_v18 (ix2 (0 : Fin 1) q) := by
  obtain ⟨-, -, -, -, -, -, -, -, e40, e41, -⟩ := idx_facts t
  show V m c main_v18 (((cfg0.win 4).blk t).view.emb (ix2 (0 : Fin 1) q)) = V m c main_v18 (ix2 (0 : Fin 1) q)
  refine congrArg (V m c main_v18) (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- WHAT POINT `t` WRITES BACK to the first output is block `t` of the location head. -/
theorem flushed_loc (c : Dev nD) (t : Fin cfg0.N) :
    (dats m 0 c).flushed 5 t = ((cfg0.win 5).blk t).view.read (Elt Ideal) (locPad m c) := by
  show (cfg0.win 5).cut (grid0.coords t) ((dats m 0 c).after 5 t) = _
  rw [after0_5]
  unfold out0_5
  rw [View.canon_unit_zero zero_offsets]
  simp only [View.ld_unit_zero (S := S6400x128) zero_offsets, View.ld_unit_zero (S := S128x128) zero_offsets,
    View.ld_unit_zero (S := S1x128) zero_offsets]
  obtain ⟨-, -, -, -, -, -, -, -, -, -, e50, e51, -⟩ := idx_facts t
  funext j
  obtain ⟨p, q, rfl⟩ : ∃ (p : Fin 6400) (q : Fin 128), j = ix2 p q := ⟨j 0, j 1, eq_ix2 j⟩
  show k0_pay2 (iblk m c 0 t) (iblk m c 1 t) (iblk m c 2 t) (ix2 p q) = locPad m c (((cfg0.win 5).blk t).view.emb (ix2 p q))
  have h0 : ((((cfg0.win 5).blk t).view.emb (ix2 p q)) 0).val = t.val * 6400 + p.val := by
    show win0_5.index t (0 : Fin 2) * 6400 + 1 * p.val = _; omega
  have h1 : ((((cfg0.win 5).blk t).view.emb (ix2 p q)) 1).val = q.val := by
    show win0_5.index t (1 : Fin 2) * 128 + 1 * q.val = _; omega
  unfold locPad
  exact pay2_at_of (R := 51200) (V m c main_v14) (V m c main_v15) (fun q => V m c main_v17 (ix2 (0 : Fin 1) q))
    (iblk m c 0 t) (iblk m c 1 t) (iblk m c 2 t) p q (((cfg0.win 5).blk t).view.emb (ix2 p q)) h1
    (fun k => feat_block m c t p k _ h0) (fun k => locw_block m c t q k) (locb_block m c t q)

/-- WHAT POINT `t` WRITES BACK to the second output is block `t` of the scale head. -/
theorem flushed_std (c : Dev nD) (t : Fin cfg0.N) :
    (dats m 0 c).flushed 6 t = ((cfg0.win 6).blk t).view.read (Elt Ideal) (stdPad m c) := by
  show (cfg0.win 6).cut (grid0.coords t) ((dats m 0 c).after 6 t) = _
  rw [after0_6]
  unfold out0_6
  rw [View.canon_unit_zero zero_offsets]
  simp only [View.ld_unit_zero (S := S6400x128) zero_offsets, View.ld_unit_zero (S := S128x128) zero_offsets,
    View.ld_unit_zero (S := S1x128) zero_offsets]
  obtain ⟨-, -, -, -, -, -, -, -, -, -, -, -, e60, e61⟩ := idx_facts t
  funext j
  obtain ⟨p, q, rfl⟩ : ∃ (p : Fin 6400) (q : Fin 128), j = ix2 p q := ⟨j 0, j 1, eq_ix2 j⟩
  show k0_pay3 (iblk m c 0 t) (iblk m c 3 t) (iblk m c 4 t) (ix2 p q) = stdPad m c (((cfg0.win 6).blk t).view.emb (ix2 p q))
  have h0 : ((((cfg0.win 6).blk t).view.emb (ix2 p q)) 0).val = t.val * 6400 + p.val := by
    show win0_6.index t (0 : Fin 2) * 6400 + 1 * p.val = _; omega
  have h1 : ((((cfg0.win 6).blk t).view.emb (ix2 p q)) 1).val = q.val := by
    show win0_6.index t (1 : Fin 2) * 128 + 1 * q.val = _; omega
  unfold stdPad
  exact pay3_at_of (R := 51200) (V m c main_v14) (V m c main_v16) (fun q => V m c main_v18 (ix2 (0 : Fin 1) q))
    (iblk m c 0 t) (iblk m c 3 t) (iblk m c 4 t) p q (((cfg0.win 6).blk t).view.emb (ix2 p q)) h1
    (fun k => feat_block m c t p k _ h0) (fun k => stdw_block m c t q k) (stdb_block m c t q)

/-- An index of the first output is in point `t`'s block iff each coordinate is in the block's range on its axis. -/
theorem mem_blk_loc (t : Fin cfg0.N) (i : S51200x128.Idx) :
    i ∈ ((cfg0.win 5).blk t).view.set ↔ ∀ a : Fin 2, win0_5.index t a * S6400x128.size a ≤ (i a).val
      ∧ (i a).val < win0_5.index t a * S6400x128.size a + S6400x128.size a := by
  show i ∈ ((View.whole main_v19_0).slice (win0_5.rect t)).set ↔ _
  rw [View.set_slice_whole, Rect.mem_set_unit]
  exact Iff.rfl

theorem mem_blk_std (t : Fin cfg0.N) (i : S51200x128.Idx) :
    i ∈ ((cfg0.win 6).blk t).view.set ↔ ∀ a : Fin 2, win0_6.index t a * S6400x128.size a ≤ (i a).val
      ∧ (i a).val < win0_6.index t a * S6400x128.size a + S6400x128.size a := by
  show i ∈ ((View.whole main_v19_1).slice (win0_6.rect t)).set ↔ _
  rw [View.set_slice_whole, Rect.mem_set_unit]
  exact Iff.rfl

/-- Row `r` of the 51200 is in the block of point `r / 6400`. -/
theorem cover_loc (i : S51200x128.Idx) :
    ∃ t : Fin cfg0.N, (cfg0.win 5).flush t = true ∧ i ∈ ((cfg0.win 5).blk t).view.set := by
  have hi0 : (i 0).val < 51200 := (i 0).isLt
  have hi1 : (i 1).val < 128 := (i 1).isLt
  have hN : cfg0.N = 8 := N_0
  let t : Fin cfg0.N := ⟨(i 0).val / 6400, by rw [hN]; omega⟩
  obtain ⟨-, -, -, -, -, -, -, -, -, -, e50, e51, -⟩ := idx_facts t
  have ht : t.val = (i 0).val / 6400 := rfl
  refine ⟨t, flush0_5 t, ?_⟩
  rw [mem_blk_loc]
  intro a
  match a with
  | ⟨0, _⟩ => show win0_5.index t (0 : Fin 2) * 6400 ≤ (i 0).val ∧ (i 0).val < win0_5.index t (0 : Fin 2) * 6400 + 6400; omega
  | ⟨1, _⟩ => show win0_5.index t (1 : Fin 2) * 128 ≤ (i 1).val ∧ (i 1).val < win0_5.index t (1 : Fin 2) * 128 + 128; omega

theorem cover_std (i : S51200x128.Idx) :
    ∃ t : Fin cfg0.N, (cfg0.win 6).flush t = true ∧ i ∈ ((cfg0.win 6).blk t).view.set := by
  have hi0 : (i 0).val < 51200 := (i 0).isLt
  have hi1 : (i 1).val < 128 := (i 1).isLt
  have hN : cfg0.N = 8 := N_0
  let t : Fin cfg0.N := ⟨(i 0).val / 6400, by rw [hN]; omega⟩
  obtain ⟨-, -, -, -, -, -, -, -, -, -, -, -, e60, e61⟩ := idx_facts t
  have ht : t.val = (i 0).val / 6400 := rfl
  refine ⟨t, flush0_6 t, ?_⟩
  rw [mem_blk_std]
  intro a
  match a with
  | ⟨0, _⟩ => show win0_6.index t (0 : Fin 2) * 6400 ≤ (i 0).val ∧ (i 0).val < win0_6.index t (0 : Fin 2) * 6400 + 6400; omega
  | ⟨1, _⟩ => show win0_6.index t (1 : Fin 2) * 128 ≤ (i 1).val ∧ (i 1).val < win0_6.index t (1 : Fin 2) * 128 + 128; omega

/-- THE FIRST OUTPUT ARRAY after the run is the location head of the padded features. -/
theorem final_loc (c : Dev nD) : (dats m 0 c).arrAt 5 cfg0.N = locPad m c :=
  (dats m 0 c).arrAt_eq_of_cover 5 (locPad m c) (fun t _ => flushed_loc m c t) cover_loc

/-- THE SECOND OUTPUT ARRAY after the run is the scale head of the padded features. -/
theorem final_std (c : Dev nD) : (dats m 0 c).arrAt 6 cfg0.N = stdPad m c :=
  (dats m 0 c).arrAt_eq_of_cover 6 (stdPad m c) (fun t _ => flushed_std m c t) cover_std

end Cert.Heads.Blocks

end
-- ==== Proof.KernelHost.lean ====
/-
  The host side of the kernel's program: what the arrays hold when the call is entered, and what the two slices after
  the call read.

  Before the call the program gathers one row of the vertex features per edge, scales it by the edge's sign times its
  norm, and scatter-adds the scaled rows into one row per target vertex: the aggregated features `feat` (50000 rows). It
  pads them with 1200 rows of the padding value to 51200 rows, rounds both weight matrices to bf16 (the identity on
  extended reals) and reshapes both bias vectors to one row. After the call it keeps rows 0 … 49999 of each output.
  Row `r < 50000` of the padded features is row `r` of `feat`, so nothing that is kept ever reads the padding.
-/
import proofs.«165769_j88106959110337_2_alg».proof.Proof.Gen.KernelIdeal.Frame
import proofs.«165769_j88106959110337_2_alg».proof.Proof.HeadsSpec
import Idealize.ShloMosaic.Lib.Pipeline.Value
import Idealize.ShloMosaic.Lib.KernelVsHost
import Idealize.ShloMosaic.Lib.ValueLayout
import Idealize.ShloMosaic.Lib.StableHlo.Run

noncomputable section

namespace Cert.Heads.HostSide

open Cert.KernelIdeal Cert.KernelIdeal.Gen Idealize.ShloMosaic Idealize.ShloMosaic.TcCoe Idealize.SL.Sem
open Idealize.ShloMosaic.ValueIdx Cert.Heads Idealize.ShloMosaic.StableHlo

variable (m : (ℓ : Loc nD τ sig) → Buf (Elt Ideal) ℓ)

/-- The aggregated features: for every target vertex the sum, over the edges that point to it, of the source vertex's
    feature row times the edge's sign times its norm (a negative source index counted from the end; the zero matrix
    where no edge points). Never opened: both programs compute it by the same operations. -/
def feat (x0 x1 : (⟨S1600000, .i32⟩ : BufTy).Contents (Elt Ideal)) (x2 x3 : (⟨S1600000, .f32⟩ : BufTy).Contents (Elt Ideal))
    (x4 : (⟨S50000x128, .f32⟩ : BufTy).Contents (Elt Ideal)) : (⟨S50000x128, .f32⟩ : BufTy).Contents (Elt Ideal) :=
  Host.scatterAdd scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 x1)
    (mulf (Host.gather gather_S50000x128_S1600000x1_S1600000x128_1_0_n_n_0_1_1128 x4
        (broadcastInDim S1600000x1 ![0] bcast_S1600000_S1600000x1_0
          (select (cmpi .slt x0 (broadcastInDim S1600000 ![] bcast_S_S1600000 (constantI S_ 32 0#32)))
            (addi x0 (broadcastInDim S1600000 ![] bcast_S_S1600000 (constantI S_ 32 50000#32))) x0)))
      (broadcastInDim S1600000x128 ![0, 1] bcast_S1600000x1_S1600000x128_0_1
        (broadcastInDim S1600000x1 ![0] bcast_S1600000_S1600000x1_0 (mulf x3 x2))))

/-- The aggregated features of the launch memory on core `c`. -/
def featOf (c : Dev nD) : (⟨S50000x128, .f32⟩ : BufTy).Contents (Elt Ideal) :=
  feat (m ((c : Thread nD τ).loc main_arg0)) (m ((c : Thread nD τ).loc main_arg1)) (m ((c : Thread nD τ).loc main_arg2))
    (m ((c : Thread nD τ).loc main_arg3)) (m ((c : Thread nD τ).loc main_arg4))

/-- The contents of the aggregation's buffer once the lines before the padding have run. -/
def featV (c : Dev nD) : S50000x128.Idx → EReal :=
  StableHlo.after hostOps0 (fun b => m (c, b)) (Proc.devRef .tc main_v13)

/-- The padding value: the integer constant the program pads with, converted to a float. It is never read: every row
    the program keeps lies above the padding. -/
def padV (c : Dev nD) : S_.Idx → EReal :=
  sitofp (F := Ideal) .f32 (StableHlo.after hostOps0 (fun b => m (c, b)) (Proc.devRef .tc main_c_1) : IVec S_ 32)

set_option maxHeartbeats 2000000 in
set_option maxRecDepth 8192 in
/-- Those contents are the aggregated features of the launch memory: the lines before the padding, composed. -/
theorem featV_eq (c : Dev nD) : featV m c = featOf m c := by
  unfold featV featOf feat
  simp only [hostOps0]
  after_results_simp

set_option maxHeartbeats 2000000 in
/-- The first operand of the call is the aggregation's buffer padded below to 51200 rows. The lines before the padding are
    kept as one valuation: only the padding, the two roundings and the two reshapes are opened here. -/
theorem entry_feat (c : Dev nD) : (V m c main_v14 : S51200x128.Idx → EReal)
    = pad S51200x128 ![0, 0] ![1200, 0] ![0, 0] (featV m c) (padV m c) pads_S50000x128_S51200x128_012000_000 h_S_ := by
  dsimp only [V, V0]
  rw [List.flatten_cons, List.flatten_cons, List.flatten_cons, List.flatten_nil, List.append_nil,
    StableHlo.after_append, StableHlo.after_append]
  unfold featV padV
  generalize StableHlo.after hostOps0 (fun b => m (c, b)) = F0
  simp only [hostOps0_1, hostOps0_2]
  after_results
  rfl

/-- Row `r < 50000` of it is row `r` of the aggregated features. -/
theorem entry_feat_at (c : Dev nD) (r : Fin 50000) (r' : Fin 51200) (hr : r'.val = r.val) (k : Fin 128) :
    V m c main_v14 (ix2 r' k) = featOf m c (ix2 r k) := by
  refine (congrFun (entry_feat m c) (ix2 r' k)).trans ?_
  rw [← featV_eq]
  refine pad_apply_of_inside _ _ _ _ _ _ _ (ix2 r' k) (ix2 r k) (fun a => ?_)
  match a with
  | ⟨0, _⟩ => show r'.val = 0 + r.val * (0 + 1); omega
  | ⟨1, _⟩ => show k.val = 0 + k.val * (0 + 1); omega

/-- The weight operands are the weight matrices (a change of float format is the identity). -/
theorem entry_locw (c : Dev nD) : (V m c main_v15 : S128x128.Idx → EReal)
    = (m ((c : Thread nD τ).loc main_arg5) : S128x128.Idx → EReal) := by
  dsimp only [V, V0]
  simp only [hostOps0, hostOps0_1, hostOps0_2, List.flatten_cons, List.flatten_nil, List.append_nil, List.cons_append,
    List.nil_append]
  after_results
  rfl

theorem entry_locw_at (c : Dev nD) (j : S128x128.Idx) : V m c main_v15 j = m ((c : Thread nD τ).loc main_arg5) j :=
  congrFun (entry_locw m c) j

theorem entry_stdw (c : Dev nD) : (V m c main_v16 : S128x128.Idx → EReal)
    = (m ((c : Thread nD τ).loc main_arg7) : S128x128.Idx → EReal) := by
  dsimp only [V, V0]
  simp only [hostOps0, hostOps0_1, hostOps0_2, List.flatten_cons, List.flatten_nil, List.append_nil, List.cons_append,
    List.nil_append]
  after_results
  rfl

theorem entry_stdw_at (c : Dev nD) (j : S128x128.Idx) : V m c main_v16 j = m ((c : Thread nD τ).loc main_arg7) j :=
  congrFun (entry_stdw m c) j

/-- The bias operands are the bias vectors laid out as one row. -/
theorem entry_locb (c : Dev nD) : (V m c main_v17 : S1x128.Idx → EReal)
    = shapeCast S1x128 (m ((c : Thread nD τ).loc main_arg6)) shapeCasts_S128_S1x128 := by
  dsimp only [V, V0]
  simp only [hostOps0, hostOps0_1, hostOps0_2, List.flatten_cons, List.flatten_nil, List.append_nil, List.cons_append,
    List.nil_append]
  after_results
  rfl

theorem entry_locb_at (c : Dev nD) (q : Fin 128) :
    V m c main_v17 (ix2 (0 : Fin 1) q) = m ((c : Thread nD τ).loc main_arg6) (ix1 q) :=
  (congrFun (entry_locb m c) (ix2 (0 : Fin 1) q)).trans (shapeCast_a_1a_apply _ shapeCasts_S128_S1x128 (0 : Fin 1) q)

theorem entry_stdb (c : Dev nD) : (V m c main_v18 : S1x128.Idx → EReal)
    = shapeCast S1x128 (m ((c : Thread nD τ).loc main_arg8)) shapeCasts_S128_S1x128 := by
  dsimp only [V, V0]
  simp only [hostOps0, hostOps0_1, hostOps0_2, List.flatten_cons, List.flatten_nil, List.append_nil, List.cons_append,
    List.nil_append]
  after_results
  rfl

theorem entry_stdb_at (c : Dev nD) (q : Fin 128) :
    V m c main_v18 (ix2 (0 : Fin 1) q) = m ((c : Thread nD τ).loc main_arg8) (ix1 q) :=
  (congrFun (entry_stdb m c) (ix2 (0 : Fin 1) q)).trans (shapeCast_a_1a_apply _ shapeCasts_S128_S1x128 (0 : Fin 1) q)

/-- The first result is rows 0 … 49999 of the first output array as the call leaves it. -/
theorem tail_loc (c : Dev nD) :
    (Pipeline.afterTail₀ cfgs (dats m) 0 (V0 m) [hostOps1] c main_v20 : S50000x128.Idx → EReal)
      = extractStridedSlice S50000x128 ![0, 0] ((dats m 0 c).arrAt 5 cfg0.N) slices_S51200x128_S50000x128_0_0 := by
  unfold Pipeline.afterTail₀
  show StableHlo.after hostOps1 _ (Proc.devRef .tc main_v20) = _
  after_results
  have e : (Pipeline.withArrays spec0 c (V0 m c) (fun w => (dats m 0 c).arrAt w cfg0.N) (Proc.devRef .tc main_v19_0)
      : S51200x128.Idx → EReal) = (dats m 0 c).arrAt 5 cfg0.N :=
    Pipeline.withArrays_arr spec0 launch0.win.arr_inj c (V0 m c) (fun w => (dats m 0 c).arrAt w cfg0.N) 5
  exact congrArg (fun A : S51200x128.Idx → EReal => extractStridedSlice S50000x128 ![0, 0] A slices_S51200x128_S50000x128_0_0) e

/-- The second result is rows 0 … 49999 of the second output array. -/
theorem tail_std (c : Dev nD) :
    (Pipeline.afterTail₀ cfgs (dats m) 0 (V0 m) [hostOps1] c main_v21 : S50000x128.Idx → EReal)
      = extractStridedSlice S50000x128 ![0, 0] ((dats m 0 c).arrAt 6 cfg0.N) slices_S51200x128_S50000x128_0_0 := by
  unfold Pipeline.afterTail₀
  show StableHlo.after hostOps1 _ (Proc.devRef .tc main_v21) = _
  after_results
  have e : (Pipeline.withArrays spec0 c (V0 m c) (fun w => (dats m 0 c).arrAt w cfg0.N) (Proc.devRef .tc main_v19_1)
      : S51200x128.Idx → EReal) = (dats m 0 c).arrAt 6 cfg0.N :=
    Pipeline.withArrays_arr spec0 launch0.win.arr_inj c (V0 m c) (fun w => (dats m 0 c).arrAt w cfg0.N) 6
  exact congrArg (fun A : S51200x128.Idx → EReal => extractStridedSlice S50000x128 ![0, 0] A slices_S51200x128_S50000x128_0_0) e

/-- A kept row of an output array is that row. -/
theorem slice_at (A : S51200x128.Idx → EReal) (r : Fin 50000) (r' : Fin 51200) (hr : r'.val = r.val) (q : Fin 128) :
    extractStridedSlice S50000x128 ![0, 0] A slices_S51200x128_S50000x128_0_0 (ix2 r q) = A (ix2 r' q) :=
  extractStridedSlice_apply _ A slices_S51200x128_S50000x128_0_0 (ix2 r q) (ix2 r' q) (fun a => by
    match a with
    | ⟨0, _⟩ => show r'.val = 0 + r.val; omega
    | ⟨1, _⟩ => show q.val = 0 + q.val; omega)

end Cert.Heads.HostSide

end
-- ==== Proof.KernelValue.lean ====
/-
  The kernel's program, read as values: after every fair execution its two results are the location head and the scale
  head of the aggregated features, the weight matrices and the bias vectors it was launched with.

  The call leaves each output array at the head of the PADDED features (51200 rows); the program keeps rows
  0 … 49999; row `r < 50000` of either head reads row `r` of the padded features only, which is row `r` of the
  aggregated features; the rounded weights are the weights and the reshaped bias rows are the biases.
-/
import proofs.«165769_j88106959110337_2_alg».proof.Proof.KernelBlocks
import proofs.«165769_j88106959110337_2_alg».proof.Proof.KernelHost

noncomputable section

namespace Cert.Heads.Value

open Cert.KernelIdeal Cert.KernelIdeal.Gen Idealize.ShloMosaic Idealize.ShloMosaic.TcCoe Idealize.SL.Sem
open Idealize.ShloMosaic.ValueIdx Cert.Heads Cert.Heads.HostSide Cert.Heads.Blocks

variable (m : (ℓ : Loc nD τ sig) → Buf (Elt Ideal) ℓ)

/-- The location head of the launch memory on core `c`. -/
def locOf (c : Dev nD) : Mat 50000 :=
  locMat (R := 50000) (featOf m c) (m ((c : Thread nD τ).loc main_arg5)) (fun q => m ((c : Thread nD τ).loc main_arg6) (ix1 q))

/-- The scale head of the launch memory on core `c`. -/
def stdOf (c : Dev nD) : Mat 50000 :=
  stdMat (R := 50000) (featOf m c) (m ((c : Thread nD τ).loc main_arg7)) (fun q => m ((c : Thread nD τ).loc main_arg8) (ix1 q))

/-- The first result after the lines that follow the call. -/
theorem result_loc (c : Dev nD) :
    (Pipeline.afterTail₀ cfgs (dats m) 0 (V0 m) [hostOps1] c main_v20 : S50000x128.Idx → EReal) = locOf m c := by
  rw [tail_loc, final_loc]
  funext i
  obtain ⟨r, q, rfl⟩ : ∃ (r : Fin 50000) (q : Fin 128), i = ix2 r q := ⟨i 0, i 1, eq_ix2 i⟩
  have hr : r.val < 51200 := by have := r.isLt; omega
  rw [slice_at _ r ⟨r.val, hr⟩ rfl q]
  unfold locPad locOf
  rw [locMat_ix2, locMat_ix2]
  exact locAt_congr _ _ _ _ _ _ _ _ q (fun k => entry_feat_at m c r _ rfl k) (fun k => entry_locw_at m c (ix2 q k))
    (entry_locb_at m c q)

/-- The second result after the lines that follow the call. -/
theorem result_std (c : Dev nD) :
    (Pipeline.afterTail₀ cfgs (dats m) 0 (V0 m) [hostOps1] c main_v21 : S50000x128.Idx → EReal) = stdOf m c := by
  rw [tail_std, final_std]
  funext i
  obtain ⟨r, q, rfl⟩ : ∃ (r : Fin 50000) (q : Fin 128), i = ix2 r q := ⟨i 0, i 1, eq_ix2 i⟩
  have hr : r.val < 51200 := by have := r.isLt; omega
  rw [slice_at _ r ⟨r.val, hr⟩ rfl q]
  unfold stdPad stdOf
  rw [stdMat_ix2, stdMat_ix2]
  exact stdAt_congr _ _ _ _ _ _ _ _ q (fun k => entry_feat_at m c r _ rfl k) (fun k => entry_stdw_at m c (ix2 q k))
    (entry_stdb_at m c q)

/-- THE RUN, READ: every weakly fair execution terminates with the two results at the two heads and the argument
    arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v20) = locOf m c
      ∧ r.2.mem ((c.tc : Thread nD τ).loc main_v21) = stdOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v20 (Pipeline.mem_restRefs_of main_v20 (by decide) (by decide))).trans (result_loc m c),
      ((h c).2 main_v21 (Pipeline.mem_restRefs_of main_v21 (by decide) (by decide))).trans (result_std m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Heads.Value

end
-- ==== Proof.RefSide.lean ====
/-
  The reference, read at one element.

  The reference multiplies the aggregated feature matrix by the TRANSPOSED weights and adds the bias broadcast down the
  rows: at (r, c) the contraction reads the features at (r, k) and the transposed weights at (k, c), that is the weights
  at (c, k), so the value is row `r` of the features against row `c` of the weights, plus the bias at `c` — the affine head
  of the specification. The scale stage applies the host's spelling of softplus to its own affine stage and adds the
  literal. The aggregated matrix itself (the gather, the scaling and the scatter-add) is never opened.
-/
import proofs.«165769_j88106959110337_2_alg».proof.Proof.Gen.ReferenceIdeal.Read
import proofs.«165769_j88106959110337_2_alg».proof.Proof.HeadsSpec
noncomputable section
namespace Cert.Heads.Ref
open Cert.ReferenceIdeal Cert.ReferenceIdeal.Read Idealize.ShloMosaic Idealize.ShloMosaic.ValueIdx Cert.Heads

/-- The affine value as the reference reads it at row `r`, column `c`: the contraction reads `P` at `(r, k)` and the
    transposed weights at `(k, c)`, that is the weights at `(c, k)`; the twice-broadcast bias is read at `c`. -/
private theorem affine_at (P : (⟨S50000x128, .f32⟩ : BufTy).Contents (Elt Ideal))
    (W : (⟨S128x128, .f32⟩ : BufTy).Contents (Elt Ideal)) (b : (⟨S128, .f32⟩ : BufTy).Contents (Elt Ideal))
    (r : Fin 50000) (c : Fin 128) :
    FloatOps.addf (F := Ideal) (φ := .f32)
        (∑ k : Fin 128, P (lidx_main_v15 (ix2 r c) k) * W (idx_main_v14 (ridx_main_v15 (ix2 r c) k)))
        (b (idx_main_v16 (idx_main_v17 (ix2 r c))))
      = locAt P W (fun c => b (ix1 c)) r c := by
  have e1 : ∀ k : Fin 128, lidx_main_v15 (ix2 r c) k = ix2 r k := fun k =>
    funext fun a => Fin.ext (by match a with | ⟨0, _⟩ => rfl | ⟨1, _⟩ => rfl)
  have e2 : ∀ k : Fin 128, idx_main_v14 (ridx_main_v15 (ix2 r c) k) = ix2 c k := fun k =>
    funext fun a => Fin.ext (by match a with | ⟨0, _⟩ => rfl | ⟨1, _⟩ => rfl)
  have e3 : idx_main_v16 (idx_main_v17 (ix2 r c)) = ix1 c :=
    funext fun a => Fin.ext (by match a with | ⟨0, _⟩ => rfl)
  unfold locAt
  rw [e3, Ideal.addf_def]
  exact congrArg (· + b (ix1 c)) (Finset.sum_congr rfl fun k _ => by rw [e1 k, e2 k])

/-- The reference's location stage is the affine head of the aggregated matrix, the first weights and the first bias. -/
theorem loc_eq (x0 x1 : (⟨S1600000, .i32⟩ : BufTy).Contents (Elt Ideal)) (x2 x3 : (⟨S1600000, .f32⟩ : BufTy).Contents (Elt Ideal)) (x4 : (⟨S50000x128, .f32⟩ : BufTy).Contents (Elt Ideal)) (x5 : (⟨S128x128, .f32⟩ : BufTy).Contents (Elt Ideal)) (x6 : (⟨S128, .f32⟩ : BufTy).Contents (Elt Ideal)) :
    val_main_v18 (F := Ideal) x0 x1 x2 x3 x4 x5 x6 = locMat (val_main_v13 (F := Ideal) x0 x1 x2 x3 x4) x5 (fun c => x6 (ix1 c)) := by
  funext i
  obtain ⟨r, c, rfl⟩ : ∃ (r : Fin 50000) (c : Fin 128), i = ix2 r c := ⟨i 0, i 1, eq_ix2 i⟩
  rw [locMat_ix2, val_main_v18_apply, val_main_v15_apply, val_main_v17_apply, val_main_v16_apply]
  simp only [val_main_v14_apply]
  exact affine_at _ x5 x6 r c

/-- The scale head's affine stage is the same affine map of its own weights and bias. -/
private theorem pre_eq (x0 x1 : (⟨S1600000, .i32⟩ : BufTy).Contents (Elt Ideal)) (x2 x3 : (⟨S1600000, .f32⟩ : BufTy).Contents (Elt Ideal)) (x4 : (⟨S50000x128, .f32⟩ : BufTy).Contents (Elt Ideal)) (x7 : (⟨S128x128, .f32⟩ : BufTy).Contents (Elt Ideal)) (x8 : (⟨S128, .f32⟩ : BufTy).Contents (Elt Ideal)) (r : Fin 50000) (c : Fin 128) :
    val_main_v23 (F := Ideal) x0 x1 x2 x3 x4 x7 x8 (ix2 r c)
      = locAt (val_main_v13 (F := Ideal) x0 x1 x2 x3 x4) x7 (fun c => x8 (ix1 c)) r c := by
  rw [val_main_v23_apply, val_main_v20_apply, val_main_v22_apply, val_main_v21_apply]
  simp only [val_main_v19_apply]
  exact affine_at _ x7 x8 r c

/-- The reference's scale stage: its affine stage is the affine head of the second weights and bias, and what follows
    is the host's spelling of `softplus` plus the literal, element by element. -/
theorem std_eq (x0 x1 : (⟨S1600000, .i32⟩ : BufTy).Contents (Elt Ideal)) (x2 x3 : (⟨S1600000, .f32⟩ : BufTy).Contents (Elt Ideal)) (x4 : (⟨S50000x128, .f32⟩ : BufTy).Contents (Elt Ideal)) (x7 : (⟨S128x128, .f32⟩ : BufTy).Contents (Elt Ideal)) (x8 : (⟨S128, .f32⟩ : BufTy).Contents (Elt Ideal)) :
    val_main_v26 (F := Ideal) x0 x1 x2 x3 x4 x7 x8 = stdMat (val_main_v13 (F := Ideal) x0 x1 x2 x3 x4) x7 (fun c => x8 (ix1 c)) := by
  funext i
  obtain ⟨r, c, rfl⟩ : ∃ (r : Fin 50000) (c : Fin 128), i = ix2 r c := ⟨i 0, i 1, eq_ix2 i⟩
  rw [stdMat_ix2]
  unfold stdAt
  rw [← pre_eq x0 x1 x2 x3 x4 x7 x8 r c]
  rw [val_main_v26_apply, val_main_v24_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v25_apply,
    val_main_cst_1_apply]
  generalize val_main_v23 (F := Ideal) x0 x1 x2 x3 x4 x7 x8 (ix2 r c) = z
  simp only [Ideal.addf_def, Ideal.subf_def, Ideal.maximumf_def, Ideal.hostUnary_exp_def, Ideal.hostUnary_log1p_def,
    Ideal.hostNegf_def, Ideal.negf_def, Ideal.hostAbsf_def, Ideal.ofBits_def]
  exact softplus_host z

end Cert.Heads.Ref
end
-- ==== Proof.lean ====
/-
  Both programs compute two heads of one aggregated feature matrix.

  For every target vertex the aggregated features are the sum, over the edges that point to it, of the source vertex's
  feature row times the edge's sign times its norm. The location head is `features · Wᵀ + b` for the first weights and
  bias; the scale head is `softplus(features · Wᵀ + b) + ε` for the second. The reference computes the heads on the host,
  over all 50000 rows at once. The kernel's program computes the aggregated features by the same host operations, pads
  them to 51200 rows, and lets a kernel compute both heads block by block (8 blocks of 6400 rows, the products in bf16
  into a zero accumulator), then keeps rows 0 … 49999.

  At the ideal instance a change of float format is the identity and a matrix product into a zero accumulator is the sum
  over the contracted axis, so row `r` of either head is the same expression of row `r` of the aggregated features on both
  sides; the padding rows are never kept. No algebraic law beyond that is used, and the precondition is not opened.
  The kernel's frames are the generated ones; the reference's frame is its run with the results dropped; the ideal pass
  rewrote nothing, so its conjunct is trivial.
-/
import proofs.«165769_j88106959110337_2_alg».proof.Defs
import proofs.«165769_j88106959110337_2_alg».proof.Proof.Gen.Kernel
import proofs.«165769_j88106959110337_2_alg».proof.Proof.Gen.Kernel.Skeleton
import proofs.«165769_j88106959110337_2_alg».proof.Proof.Gen.Kernel.Launch
import proofs.«165769_j88106959110337_2_alg».proof.Proof.Gen.Kernel.Points
import proofs.«165769_j88106959110337_2_alg».proof.Proof.Gen.Kernel.Frame
import proofs.«165769_j88106959110337_2_alg».proof.Proof.Gen.KernelIdeal
import proofs.«165769_j88106959110337_2_alg».proof.Proof.Gen.KernelIdeal.Skeleton
import proofs.«165769_j88106959110337_2_alg».proof.Proof.Gen.KernelIdeal.Launch
import proofs.«165769_j88106959110337_2_alg».proof.Proof.Gen.KernelIdeal.Points
import proofs.«165769_j88106959110337_2_alg».proof.Proof.Gen.KernelIdeal.Frame
import proofs.«165769_j88106959110337_2_alg».proof.Proof.Gen.ReferenceIdeal
import proofs.«165769_j88106959110337_2_alg».proof.Proof.Gen.Pre_finite_inputs
import proofs.«165769_j88106959110337_2_alg».proof.Proof.Gen.ReferenceIdeal.Run
import proofs.«165769_j88106959110337_2_alg».proof.Proof.Gen.ReferenceIdeal.Read
import proofs.«165769_j88106959110337_2_alg».proof.Proof.KernelValue
import proofs.«165769_j88106959110337_2_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx
open Cert.Heads Cert.Heads.HostSide Cert.Heads.Value

/-- The aggregated features are ONE function of the arguments: the kernel's program and the reference apply the same
    operations, so the two spellings are the same term. -/
theorem feat_ref (x0 x1 : (⟨Cert.KernelIdeal.S1600000, .i32⟩ : BufTy).Contents (Elt Ideal))
    (x2 x3 : (⟨Cert.KernelIdeal.S1600000, .f32⟩ : BufTy).Contents (Elt Ideal))
    (x4 : (⟨Cert.KernelIdeal.S50000x128, .f32⟩ : BufTy).Contents (Elt Ideal)) :
    feat x0 x1 x2 x3 x4 = Cert.ReferenceIdeal.Read.val_main_v13 (F := Ideal) x0 x1 x2 x3 x4 := rfl

theorem frame_kernel : Cert.frame_Kernel := fun m ρ _ => Cert.Kernel.Gen.frame m ρ

theorem frame_ideal : Cert.frame_KernelIdeal := fun m ρ _ => Cert.KernelIdeal.Gen.frame m ρ

/-- The reference's frame is its run with the two results dropped. -/
theorem frame_ref : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the location head and the scale head of the
    kernel's launch memory: the kernel's by its run read as values, the reference's by its run, its two stages read as the
    heads, and the agreement of the arguments. -/
theorem algebraic : Cert.algebraic_KernelIdeal_ReferenceIdeal := by
  intro m ρ m' ρ' _ hagree
  refine ⟨fun c => locOf m c, fun c => stdOf m c, Cert.Heads.Value.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6, e7, e8⟩ := hagree c
    refine (h c).1.trans ?_
    rw [Cert.ReferenceIdeal.Read.val_main_v18_eq, Cert.Heads.Ref.loc_eq, e0, e1, e2, e3, e4, e5, e6]
    show _ = locOf m c
    unfold locOf featOf
    rw [feat_ref]
  · obtain ⟨e0, e1, e2, e3, e4, e5, e6, e7, e8⟩ := hagree c
    refine (h c).2.1.trans ?_
    rw [Cert.ReferenceIdeal.Read.val_main_v26_eq, Cert.Heads.Ref.std_eq, e0, e1, e2, e3, e4, e7, e8]
    show _ = stdOf m c
    unfold stdOf featOf
    rw [feat_ref]

theorem claim : Cert.Claim :=
  ⟨Cert.Kernel.Gen.facts, Cert.KernelIdeal.Gen.facts, Cert.ReferenceIdeal.Gen.facts, Cert.Pre_finite_inputs.Gen.facts,
    frame_kernel, frame_ideal, frame_ref, trivial, algebraic⟩

end Cert.Proof

end
